-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) (main_arg2 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S10000x256 : Shape := ⟨2, ![10000, 256]⟩
abbrev S200x10000 : Shape := ⟨2, ![200, 10000]⟩
abbrev S200x256 : Shape := ⟨2, ![200, 256]⟩
abbrev S200x128 : Shape := ⟨2, ![200, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x256, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x256, .f32⟩
  | .local _ .vmem, ⟨6, _⟩ => ⟨S200x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S200x10000_S200x10000_0_0 : ∀ a, (![0, 0] : Fin 2 → Nat) a + S200x10000.size a ≤ S200x10000.size a
  h_S200x10000 : 0 < S200x10000.numel
  inb_S200x256_S200x128_0_0 : ∀ a, (![0, 0] : Fin 2 → Nat) a + S200x128.size a ≤ S200x256.size a
  h_S200x128 : 0 < S200x128.numel
  inb_S200x256_S200x128_0_128 : ∀ a, (![0, 128] : Fin 2 → Nat) a + S200x128.size a ≤ S200x256.size a
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S10000x256.size a
  hwx0_3 : ∀ i : grid0.Coords, EltTy.bits .f32 = 32 ∨ (Rect.block (s := S10000x256) S200x256.size (cc0_transform_3 i) (hinb0_3 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x256 : Shape := ⟨2, ![10000, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x128, .f32⟩
  | .hbm, ⟨4, _⟩ => ⟨S10000x128, .f32⟩
  | .hbm, ⟨5, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  What both programs compute, as ONE function of the three argument arrays over the extended reals.

  With x the 10000 × 128 feature matrix and A₁, A₂ the two 10000 × 10000 adjacency matrices, the result is the
  10000 × 256 array whose columns 0 … 127 hold the product A₁ · x and whose columns 128 … 255 hold A₂ · x:

      out[r, c] = ∑ₖ A₁[r, k] · x[k, c]            for c < 128,
      out[r, c] = ∑ₖ A₂[r, k] · x[k, c − 128]      for 128 ≤ c,

  the sum over the 10000 nodes k. Sums and products are those of the extended reals; nothing here needs the
  entries to be finite, because the two programs form the very same products and add the very same family of
  them (a finite sum in a commutative monoid does not depend on how it is enumerated).
-/
import Idealize.ShloMosaic.PureOps.Ideal
import Idealize.ShloMosaic.Lib.ValueIdx

noncomputable section

open scoped BigOperators

namespace Cert.TwoHop

open Idealize.ShloMosaic Idealize.ShloMosaic.ValueIdx

/-- Entry (r, q) of an adjacency matrix times the feature matrix: the sum over the nodes k of A[r, k] · x[k, q]. -/
def hop (A : FVec Ideal (⟨2, ![10000, 10000]⟩ : Shape) .f32) (x : FVec Ideal (⟨2, ![10000, 128]⟩ : Shape) .f32)
    (r : Fin 10000) (q : Fin 128) : EReal :=
  ∑ k : Fin 10000, A (ix2 r k) * x (ix2 k q)

/-- The two products side by side: a column below 128 reads A₁ · x there, a column from 128 on reads A₂ · x at
    the column less 128. -/
def joined (x : FVec Ideal (⟨2, ![10000, 128]⟩ : Shape) .f32)
    (A₁ A₂ : FVec Ideal (⟨2, ![10000, 10000]⟩ : Shape) .f32) : FVec Ideal (⟨2, ![10000, 256]⟩ : Shape) .f32 :=
  fun i =>
    if h : (i 1).val < 128 then hop A₁ x (i 0) ⟨(i 1).val, h⟩
    else hop A₂ x (i 0) ⟨(i 1).val - 128, by have := idx2_lt1 i; omega⟩

/-- In the left half the joined array is the first product. -/
theorem joined_left (x : FVec Ideal (⟨2, ![10000, 128]⟩ : Shape) .f32)
    (A₁ A₂ : FVec Ideal (⟨2, ![10000, 10000]⟩ : Shape) .f32) (r : Fin 10000) (c : Fin 256) (q : Fin 128)
    (h : c.val = q.val) : joined x A₁ A₂ (ix2 r c) = hop A₁ x r q := by
  have hlt : ((ix2 r c : (⟨2, ![10000, 256]⟩ : Shape).Idx) 1).val < 128 := by
    show c.val < 128
    have := q.isLt; omega
  unfold joined
  rw [dif_pos hlt]
  exact congrArg (hop A₁ x r) (Fin.ext h)

/-- In the right half it is the second product, 128 columns to the left. -/
theorem joined_right (x : FVec Ideal (⟨2, ![10000, 128]⟩ : Shape) .f32)
    (A₁ A₂ : FVec Ideal (⟨2, ![10000, 10000]⟩ : Shape) .f32) (r : Fin 10000) (c : Fin 256) (q : Fin 128)
    (h : c.val = q.val + 128) : joined x A₁ A₂ (ix2 r c) = hop A₂ x r q := by
  have hge : ¬ ((ix2 r c : (⟨2, ![10000, 256]⟩ : Shape).Idx) 1).val < 128 := by
    show ¬ c.val < 128
    omega
  unfold joined
  rw [dif_neg hge]
  exact congrArg (hop A₂ x r) (Fin.ext (by show c.val - 128 = q.val; omega))

end Cert.TwoHop

end
-- ==== Proof.RefJoined.lean ====
/-
  The reference computes the joined array.

  The host program forms A₁ · x and A₂ · x, each a contraction of a 10000 × 10000 matrix with the 10000 × 128
  feature matrix over the node axis, and lays the two results side by side along the column axis. Read at row r
  and column c, a two-piece join reads its first piece at (r, c) when c is below the first piece's 128 columns,
  and its second piece at (r, c − 128) otherwise; each piece at (r, q) is the sum over the nodes k of
  A[r, k] · x[k, q]. That is the joined array of the specification, entry by entry.
-/
import proofs.«155395_g33217277067915_cont_8to1_b_760_17_alg».proof.Proof.Gen.ReferenceIdeal.Read
import proofs.«155395_g33217277067915_cont_8to1_b_760_17_alg».proof.Proof.Spec
import Idealize.ShloMosaic.Lib.Pipeline.Value
import Idealize.ShloMosaic.Lib.ValueIdx

noncomputable section

open scoped BigOperators

namespace Cert.ReferenceIdeal.Joined

open Cert.ReferenceIdeal Cert.ReferenceIdeal.Gen Cert.ReferenceIdeal.Read Idealize.ShloMosaic Idealize.ShloMosaic.ValueIdx

/-- The first product reads its matrix at (r, k) … -/
theorem first_lidx (r : Fin 10000) (q : Fin 128) (k : Fin 10000) :
    lidx_main_v0 (ix2 r q) k = ix2 r k :=
  funext fun a => Fin.ext (by match a with | ⟨0, _⟩ => rfl | ⟨1, _⟩ => rfl)
/-- … and the features at (k, q). -/
theorem first_ridx (r : Fin 10000) (q : Fin 128) (k : Fin 10000) :
    ridx_main_v0 (ix2 r q) k = ix2 k q :=
  funext fun a => Fin.ext (by match a with | ⟨0, _⟩ => rfl | ⟨1, _⟩ => rfl)
/-- The second product reads its matrix at (r, k) … -/
theorem second_lidx (r : Fin 10000) (q : Fin 128) (k : Fin 10000) :
    lidx_main_v1 (ix2 r q) k = ix2 r k :=
  funext fun a => Fin.ext (by match a with | ⟨0, _⟩ => rfl | ⟨1, _⟩ => rfl)
/-- … and the features at (k, q). -/
theorem second_ridx (r : Fin 10000) (q : Fin 128) (k : Fin 10000) :
    ridx_main_v1 (ix2 r q) k = ix2 k q :=
  funext fun a => Fin.ext (by match a with | ⟨0, _⟩ => rfl | ⟨1, _⟩ => rfl)

/-- The first contraction at (r, q) is the specification's product of A₁ with x there. -/
theorem first_entry (x : FVec Ideal S10000x128 .f32) (A₁ : FVec Ideal S10000x10000 .f32) (r : Fin 10000) (q : Fin 128) :
    val_main_v0 (F := Ideal) x A₁ (ix2 r q) = Cert.TwoHop.hop A₁ x r q := by
  rw [val_main_v0_apply]
  unfold Cert.TwoHop.hop
  refine Finset.sum_congr rfl fun k _ => ?_
  rw [first_lidx, first_ridx]

/-- The second contraction at (r, q) is the specification's product of A₂ with x there. -/
theorem second_entry (x : FVec Ideal S10000x128 .f32) (A₂ : FVec Ideal S10000x10000 .f32) (r : Fin 10000) (q : Fin 128) :
    val_main_v1 (F := Ideal) x A₂ (ix2 r q) = Cert.TwoHop.hop A₂ x r q := by
  rw [val_main_v1_apply]
  unfold Cert.TwoHop.hop
  refine Finset.sum_congr rfl fun k _ => ?_
  rw [second_lidx, second_ridx]

/-- The reference's result is the joined array. -/
theorem result_eq (x : FVec Ideal S10000x128 .f32) (A₁ A₂ : FVec Ideal S10000x10000 .f32) :
    val_main_v2 (F := Ideal) x A₁ A₂ = Cert.TwoHop.joined x A₁ A₂ := by
  funext i
  obtain ⟨r, c, rfl⟩ : ∃ (r : Fin 10000) (c : Fin 256), i = ix2 r c := ⟨i 0, i 1, eq_ix2 i⟩
  unfold val_main_v2
  by_cases h : c.val < 128
  · rw [Cert.TwoHop.joined_left x A₁ A₂ r c ⟨c.val, h⟩ rfl]
    refine (concatenate_pair_apply_left (1 : Fin S10000x256.rank) _ _
      concatenates_S10000x128_S10000x128_S10000x256_d1 (ix2 r c) rfl (ix2 r ⟨c.val, h⟩)
      (fun b => by match b with | ⟨0, _⟩ => rfl | ⟨1, _⟩ => rfl)).trans ?_
    exact first_entry x A₁ r ⟨c.val, h⟩
  · have hc : c.val - 128 < 128 := by have := c.isLt; omega
    rw [Cert.TwoHop.joined_right x A₁ A₂ r c ⟨c.val - 128, hc⟩ (by show c.val = c.val - 128 + 128; omega)]
    refine (concatenate_pair_apply_right (1 : Fin S10000x256.rank) _ _
      concatenates_S10000x128_S10000x128_S10000x256_d1 (ix2 r c) rfl rfl (ix2 r ⟨c.val - 128, hc⟩)
      (fun b hb => by
        match b with
        | ⟨0, _⟩ => rfl
        | ⟨1, _⟩ => exact absurd rfl hb)
      (by show c.val - 128 + 128 = c.val; omega)).trans ?_
    exact second_entry x A₂ r ⟨c.val - 128, hc⟩

end Cert.ReferenceIdeal.Joined

end
-- ==== Proof.KernelEntry.lean ====
/-
  One entry of the kernel's matrix product.

  At a grid point the body multiplies its 200 × 10000 block of an adjacency matrix with the whole 10000 × 128
  feature matrix on the matrix unit, accumulating into a zero block. Over the extended reals the accumulator
  contributes 0 + · and the product at row p, column q of the block is the plain sum over the contracted axis,

      ∑ₖ A[p, k] · x[k, q],      k over the 10000 nodes.

  The contraction has one axis; its index set is identified with Fin 10000, and the dimension numbers send the
  output index (p, q) and the contraction coordinate k to (p, k) in the left operand and (k, q) in the right one.
  Both stores of the body carry this same product, of the first and of the second adjacency block.
-/
import proofs.«155395_g33217277067915_cont_8to1_b_760_17_alg».proof.Proof.Gen.KernelIdeal.Skeleton
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- The left operand is read in the output's row … -/
theorem lhs_row (j : S200x128.Idx) (κ : dot_S200x10000_S10000x128_S200x128_1_0_0_1_n_n.contr.Idx) :
    (dot_S200x10000_S10000x128_S200x128_1_0_0_1_n_n.lhsIdx j κ 0).val = (j 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- … at the contraction's coordinate; -/
theorem lhs_col (j : S200x128.Idx) (κ : dot_S200x10000_S10000x128_S200x128_1_0_0_1_n_n.contr.Idx) :
    (dot_S200x10000_S10000x128_S200x128_1_0_0_1_n_n.lhsIdx j κ 1).val = (κ ⟨0, by decide⟩).val :=
  dot_S200x10000_S10000x128_S200x128_1_0_0_1_n_n.lhsIdx_val_of_single rfl j κ
/-- the right operand is read at the contraction's coordinate … -/
theorem rhs_row (j : S200x128.Idx) (κ : dot_S200x10000_S10000x128_S200x128_1_0_0_1_n_n.contr.Idx) :
    (dot_S200x10000_S10000x128_S200x128_1_0_0_1_n_n.rhsIdx j κ 0).val = (κ ⟨0, by decide⟩).val :=
  dot_S200x10000_S10000x128_S200x128_1_0_0_1_n_n.rhsIdx_val_of_single rfl j κ
/-- … in the output's column. -/
theorem rhs_col (j : S200x128.Idx) (κ : dot_S200x10000_S10000x128_S200x128_1_0_0_1_n_n.contr.Idx) :
    (dot_S200x10000_S10000x128_S200x128_1_0_0_1_n_n.rhsIdx j κ 1).val = (j 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product into a zero accumulator, at row p and column q of the block, is the sum over the nodes. -/
theorem matmul_entry (A : FVec Ideal S200x10000 .f32) (x : FVec Ideal S10000x128 .f32) (p : Fin 200) (q : Fin 128) :
    matmul (F := Ideal) dot_S200x10000_S10000x128_S200x128_1_0_0_1_n_n none A x (constant S200x128 .f32 0x00000000#32) (ix2 p q)
      = ∑ k : Fin 10000, A (ix2 p k) * x (ix2 k q) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact lhs_row _ _
    | ⟨1, _⟩ => exact (lhs_col _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (rhs_row _ _).trans hk
    | ⟨1, _⟩ => exact rhs_col _ _)
  rw [el, er]

/-- What the first store carries: the first adjacency block times the features. -/
theorem first_entry (x : Vec Ideal S10000x128 .f32) (A : Vec Ideal S200x10000 .f32) (p : Fin 200) (q : Fin 128) :
    k0_pay1 (F := Ideal) x A (ix2 p q) = ∑ k : Fin 10000, A (ix2 p k) * x (ix2 k q) := by
  unfold k0_pay1
  exact matmul_entry A x p q

/-- What the second store carries: the second adjacency block times the features. -/
theorem second_entry (x : Vec Ideal S10000x128 .f32) (A : Vec Ideal S200x10000 .f32) (p : Fin 200) (q : Fin 128) :
    k0_pay2 (F := Ideal) x A (ix2 p q) = ∑ k : Fin 10000, A (ix2 p k) * x (ix2 k q) := by
  unfold k0_pay2
  exact matmul_entry A x p q

end Cert.KernelIdeal.Entry

end
-- ==== Proof.BlockValue.lean ====
/-
  The output block a grid point leaves, as one function of its three input blocks.

  The body stores two 200 × 128 pieces into its 200 × 256 output buffer: the product of the first adjacency
  block with the features into columns 0 … 127, the product of the second into columns 128 … 255. The two
  rectangles tile the buffer, so the buffer afterwards is the one function

      block[p, c] = ∑ₖ A₁blk[p, k] · x[k, c]            for c < 128,
      block[p, c] = ∑ₖ A₂blk[p, k] · x[k, c − 128]      for 128 ≤ c,

  of the loaded blocks: each piece, read at its own index (p, q), is this function at the piece's position —
  (p, q) for the first rectangle, (p, 128 + q) for the second.
-/
import proofs.«155395_g33217277067915_cont_8to1_b_760_17_alg».proof.Proof.Gen.KernelIdeal.Frame
import proofs.«155395_g33217277067915_cont_8to1_b_760_17_alg».proof.Proof.KernelEntry
import Idealize.ShloMosaic.Lib.Pipeline.Value
import Idealize.ShloMosaic.Lib.ValueIdx

noncomputable section

open scoped BigOperators

namespace Cert.KernelIdeal.Block

open Cert.KernelIdeal Cert.KernelIdeal.Gen Idealize.ShloMosaic Idealize.ShloMosaic.ValueIdx

/-- The block after the body: left half from the first adjacency block, right half from the second. -/
def both (x : Vec Ideal S10000x128 .f32) (A₁ A₂ : Vec Ideal S200x10000 .f32) : Vec Ideal S200x256 .f32 :=
  fun y =>
    if h : (y 1).val < 128 then ∑ k : Fin 10000, A₁ (ix2 (y 0) k) * x (ix2 k ⟨(y 1).val, h⟩)
    else ∑ k : Fin 10000, A₂ (ix2 (y 0) k) * x (ix2 k ⟨(y 1).val - 128, by have := idx2_lt1 y; omega⟩)

/-- Its left half, at an index given by coordinates. -/
theorem both_left (x : Vec Ideal S10000x128 .f32) (A₁ A₂ : Vec Ideal S200x10000 .f32) (y : S200x256.Idx)
    (p : Fin 200) (q : Fin 128) (h0 : (y 0).val = p.val) (h1 : (y 1).val = q.val) :
    both x A₁ A₂ y = ∑ k : Fin 10000, A₁ (ix2 p k) * x (ix2 k q) := by
  have hlt : (y 1).val < 128 := by have := q.isLt; omega
  unfold both
  rw [dif_pos hlt]
  have e0 : (y 0 : Fin 200) = p := Fin.ext h0
  have e1 : (⟨(y 1).val, hlt⟩ : Fin 128) = q := Fin.ext h1
  rw [e0, e1]

/-- Its right half, at an index given by coordinates. -/
theorem both_right (x : Vec Ideal S10000x128 .f32) (A₁ A₂ : Vec Ideal S200x10000 .f32) (y : S200x256.Idx)
    (p : Fin 200) (q : Fin 128) (h0 : (y 0).val = p.val) (h1 : (y 1).val = q.val + 128) :
    both x A₁ A₂ y = ∑ k : Fin 10000, A₂ (ix2 p k) * x (ix2 k q) := by
  have hge : ¬ (y 1).val < 128 := by omega
  have hq : (y 1).val - 128 < 128 := by have := q.isLt; omega
  unfold both
  rw [dif_neg hge]
  have e0 : (y 0 : Fin 200) = p := Fin.ext h0
  have e1 : (⟨(y 1).val - 128, hq⟩ : Fin 128) = q := Fin.ext (by show (y 1).val - 128 = q.val; omega)
  rw [e0, e1]

theorem zero_offsets : (![0, 0] : Fin 2 → Nat) = fun _ => 0 := funext fun a => by fin_cases a <;> rfl

/-- What the body leaves in the output buffer is that function of the three loaded blocks. -/
theorem out_eq (x : Vec Ideal S10000x128 .f32) (A₁ A₂ : Vec Ideal S200x10000 .f32) :
    out0_3 (F := Ideal) x A₁ A₂ = both x A₁ A₂ := by
  funext y
  unfold out0_3
  simp only [View.ld_unit_zero (S := S10000x128) zero_offsets, View.ld_unit_zero (S := S200x10000) zero_offsets]
  refine View.canon_apply_of_pieces (both x A₁ A₂) _ ?_ y (cover0_3 _ _ y)
  intro pc hpc z
  rcases List.mem_cons.mp hpc with rfl | hpc
  · -- the second store: columns 128 … 255
    obtain ⟨p, q, rfl⟩ : ∃ (p : Fin 200) (q : Fin 128), z = ix2 p q := ⟨z 0, z 1, eq_ix2 z⟩
    refine (Cert.KernelIdeal.Entry.second_entry x A₂ p q).trans (both_right x A₁ A₂ _ p q ?_ ?_).symm
    · show 0 + 1 * p.val = p.val; omega
    · show 128 + 1 * q.val = q.val + 128; omega
  · rcases List.mem_cons.mp hpc with rfl | hpc
    · -- the first store: columns 0 … 127
      obtain ⟨p, q, rfl⟩ : ∃ (p : Fin 200) (q : Fin 128), z = ix2 p q := ⟨z 0, z 1, eq_ix2 z⟩
      refine (Cert.KernelIdeal.Entry.first_entry x A₁ p q).trans (both_left x A₁ A₂ _ p q ?_ ?_).symm
      · show 0 + 1 * p.val = p.val; omega
      · show 0 + 1 * q.val = q.val; omega
    · exact absurd hpc (List.not_mem_nil)

end Cert.KernelIdeal.Block

end
-- ==== Proof.ArrayValue.lean ====
/-
  From the blocks to the whole result array.

  The grid has 50 points. Point t stages the whole feature matrix, rows 200 t … 200 t + 199 of each adjacency
  matrix, and writes back rows 200 t … 200 t + 199 of the 10000 × 256 result (all 256 columns). Entry (p, c) of the
  block it writes is therefore the joined array of the specification at (200 t + p, c): the block's row p of an
  adjacency block is row 200 t + p of the matrix, and the sum over the nodes is unchanged. Every row r of the
  result lies in exactly the block of point r / 200, so the 50 blocks cover the array and the array after the
  run is the joined array of the three arguments.
-/
import proofs.«155395_g33217277067915_cont_8to1_b_760_17_alg».proof.Proof.Gen.KernelIdeal.Value
import proofs.«155395_g33217277067915_cont_8to1_b_760_17_alg».proof.Proof.BlockValue
import proofs.«155395_g33217277067915_cont_8to1_b_760_17_alg».proof.Proof.Spec
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The index maps over the grid: the features' window stays at block (0, 0); the two adjacency windows and the
    result's window are at block row t, block column 0. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at any point is the whole feature matrix. -/
theorem feat_block (c : Dev nD) (t : Fin cfg0.N) (k : Fin 10000) (q : Fin 128) :
    (iblk m c 0 t : Vec Ideal S10000x128 .f32) (ix2 k q) = ((m ((c : Thread nD τ).loc main_arg0)) : S10000x128.Idx → EReal) (ix2 k q) := by
  obtain ⟨e0, e1, -⟩ := idx_facts t
  show V m c main_arg0 (((cfg0.win 0).blk t).view.emb (ix2 k q)) = V m c main_arg0 (ix2 k q)
  refine congrArg _ (funext fun a => Fin.ext ?_)
  match a with
  | ⟨0, _⟩ => show win0_0.index t (0 : Fin 2) * 10000 + 1 * k.val = k.val; omega
  | ⟨1, _⟩ => show win0_0.index t (1 : Fin 2) * 128 + 1 * q.val = q.val; omega

/-- Row p of the first adjacency block at point t is row 200 t + p of the first adjacency matrix. -/
theorem adj1_block (c : Dev nD) (t : Fin cfg0.N) (p : Fin 200) (k : Fin 10000) (R : Fin 10000)
    (hR : R.val = 200 * t.val + p.val) :
    (iblk m c 1 t : Vec Ideal S200x10000 .f32) (ix2 p k) = ((m ((c : Thread nD τ).loc main_arg1)) : S10000x10000.Idx → EReal) (ix2 R k) := by
  obtain ⟨-, -, e2, e3, -⟩ := idx_facts t
  show V m c main_arg1 (((cfg0.win 1).blk t).view.emb (ix2 p k)) = V m c main_arg1 (ix2 R k)
  refine congrArg _ (funext fun a => Fin.ext ?_)
  match a with
  | ⟨0, _⟩ => show win0_1.index t (0 : Fin 2) * 200 + 1 * p.val = R.val; omega
  | ⟨1, _⟩ => show win0_1.index t (1 : Fin 2) * 10000 + 1 * k.val = k.val; omega

/-- Row p of the second adjacency block at point t is row 200 t + p of the second adjacency matrix. -/
theorem adj2_block (c : Dev nD) (t : Fin cfg0.N) (p : Fin 200) (k : Fin 10000) (R : Fin 10000)
    (hR : R.val = 200 * t.val + p.val) :
    (iblk m c 2 t : Vec Ideal S200x10000 .f32) (ix2 p k) = ((m ((c : Thread nD τ).loc main_arg2)) : S10000x10000.Idx → EReal) (ix2 R k) := by
  obtain ⟨-, -, -, -, e4, e5, -⟩ := idx_facts t
  show V m c main_arg2 (((cfg0.win 2).blk t).view.emb (ix2 p k)) = V m c main_arg2 (ix2 R k)
  refine congrArg _ (funext fun a => Fin.ext ?_)
  match a with
  | ⟨0, _⟩ => show win0_2.index t (0 : Fin 2) * 200 + 1 * p.val = R.val; omega
  | ⟨1, _⟩ => show win0_2.index t (1 : Fin 2) * 10000 + 1 * k.val = k.val; omega

/-- What point t writes back is block t of the joined array of the three arguments. -/
theorem flushed_eq (c : Dev nD) (t : Fin cfg0.N) :
    (dats m 0 c).flushed 3 t = ((cfg0.win 3).blk t).view.read (Elt Ideal)
      (Cert.TwoHop.joined (m ((c : Thread nD τ).loc main_arg0)) (m ((c : Thread nD τ).loc main_arg1)) (m ((c : Thread nD τ).loc main_arg2))) := by
  rw [flushed3, Cert.KernelIdeal.Block.out_eq]
  obtain ⟨-, -, -, -, -, -, e6, e7⟩ := idx_facts t
  have ht : t.val < 50 := by have h := t.isLt; have hN : cfg0.N = 50 := N_0; omega
  funext y
  obtain ⟨p, cc, rfl⟩ : ∃ (p : Fin 200) (cc : Fin 256), y = ix2 p cc := ⟨y 0, y 1, eq_ix2 y⟩
  have hR : 200 * t.val + p.val < 10000 := by have := p.isLt; omega
  show Cert.KernelIdeal.Block.both (iblk m c 0 t) (iblk m c 1 t) (iblk m c 2 t) (ix2 p cc)
    = Cert.TwoHop.joined (m ((c : Thread nD τ).loc main_arg0)) (m ((c : Thread nD τ).loc main_arg1)) (m ((c : Thread nD τ).loc main_arg2)) (((cfg0.win 3).blk t).view.emb (ix2 p cc))
  have hemb : ((cfg0.win 3).blk t).view.emb (ix2 p cc) = ix2 (⟨200 * t.val + p.val, hR⟩ : Fin 10000) cc :=
    funext fun a => Fin.ext (by
      match a with
      | ⟨0, _⟩ => show win0_3.index t (0 : Fin 2) * 200 + 1 * p.val = 200 * t.val + p.val; omega
      | ⟨1, _⟩ => show win0_3.index t (1 : Fin 2) * 256 + 1 * cc.val = cc.val; omega)
  rw [hemb]
  by_cases h : cc.val < 128
  · rw [Cert.TwoHop.joined_left _ _ _ _ cc ⟨cc.val, h⟩ rfl,
      Cert.KernelIdeal.Block.both_left _ _ _ _ p ⟨cc.val, h⟩ rfl rfl]
    unfold Cert.TwoHop.hop
    refine Finset.sum_congr rfl fun k _ => ?_
    rw [feat_block m c t k ⟨cc.val, h⟩, adj1_block m c t p k ⟨200 * t.val + p.val, hR⟩ rfl]
  · have hc : cc.val - 128 < 128 := by have := cc.isLt; omega
    have hcc : cc.val = cc.val - 128 + 128 := by omega
    rw [Cert.TwoHop.joined_right _ _ _ _ cc ⟨cc.val - 128, hc⟩ hcc,
      Cert.KernelIdeal.Block.both_right _ _ _ _ p ⟨cc.val - 128, hc⟩ rfl hcc]
    unfold Cert.TwoHop.hop
    refine Finset.sum_congr rfl fun k _ => ?_
    rw [feat_block m c t k ⟨cc.val - 128, hc⟩, adj2_block m c t p k ⟨200 * t.val + p.val, hR⟩ rfl]

/-- An index of the result is in point t's block iff each coordinate is in the block's range on its axis. -/
theorem mem_blk (t : Fin cfg0.N) (i : S10000x256.Idx) :
    i ∈ ((cfg0.win 3).blk t).view.set ↔ ∀ a : Fin 2, win0_3.index t a * S200x256.size a ≤ (i a).val
      ∧ (i a).val < win0_3.index t a * S200x256.size a + S200x256.size a := by
  show i ∈ ((View.whole main_v0).slice (win0_3.rect t)).set ↔ _
  rw [View.set_slice_whole, Rect.mem_set_unit]
  exact Iff.rfl

/-- Row r of the result lies in the block of point r / 200: the 50 blocks cover the array. -/
theorem cover (i : S10000x256.Idx) :
    ∃ t : Fin cfg0.N, (cfg0.win 3).flush t = true ∧ i ∈ ((cfg0.win 3).blk t).view.set := by
  have hi0 : (i 0).val < 10000 := idx2_lt0 i
  have hi1 : (i 1).val < 256 := idx2_lt1 i
  have hN : cfg0.N = 50 := N_0
  obtain ⟨t, ht⟩ : ∃ t : Fin cfg0.N, t.val = (i 0).val / 200 := ⟨⟨(i 0).val / 200, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 200 ≤ (i 0).val ∧ (i 0).val < win0_3.index t (0 : Fin 2) * 200 + 200
    omega
  | ⟨1, _⟩ =>
    show win0_3.index t (1 : Fin 2) * 256 ≤ (i 1).val ∧ (i 1).val < win0_3.index t (1 : Fin 2) * 256 + 256
    omega

/-- The result array after the run is the joined array of the three arguments. -/
theorem final (c : Dev nD) :
    (dats m 0 c).arrAt 3 cfg0.N = Cert.TwoHop.joined (m ((c : Thread nD τ).loc main_arg0)) (m ((c : Thread nD τ).loc main_arg1)) (m ((c : Thread nD τ).loc main_arg2)) :=
  (dats m 0 c).arrAt_eq_of_cover 3 (Cert.TwoHop.joined (m ((c : Thread nD τ).loc main_arg0)) (m ((c : Thread nD τ).loc main_arg1)) (m ((c : Thread nD τ).loc main_arg2)))
    (fun t _ => flushed_eq m c t) cover

/-- The kernel's run: the result at the joined array of the arguments, the arguments unchanged. -/
theorem run : θ_run defs (onTc (τ := τ) (main (F := Ideal))) ⟨m, fun _ => 0, ρ⟩ fun r => ∀ c : Dev nD,
      r.2.mem ((c : Thread nD τ).loc main_v0) = Cert.TwoHop.joined (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  The kernel and its reference compute the same 10000 × 256 array.

  Both take the feature matrix x (10000 × 128) and two adjacency matrices A₁, A₂ (10000 × 10000) and return the
  products A₁ · x and A₂ · x side by side. The kernel walks 50 blocks of 200 rows: at each it multiplies the two
  adjacency blocks with the whole feature matrix and stores the products into the left and the right half of a
  200 × 256 output block. The reference contracts each whole matrix with x and joins the results along the columns.

  Over the extended reals every entry of either result is the same sum over the 10000 nodes,

      out[r, c] = ∑ₖ A₁[r, k] · x[k, c]   (c < 128),      out[r, c] = ∑ₖ A₂[r, k] · x[k, c − 128]   (128 ≤ c):

  Proof/Spec.lean states it as one function of the arguments, Proof/RefJoined.lean shows the reference's result
  is that function (a two-piece join read at an index, each piece a contraction read as a sum),
  Proof/KernelEntry.lean reads the kernel's product into a zero accumulator as the same sum (0 + s = s),
  Proof/BlockValue.lean reads the two stores as one block, and Proof/ArrayValue.lean places block t at rows
  200 t … 200 t + 199 and covers the array with the 50 blocks. No law that fails at infinite entries is used —
  the same products are added on both sides — so the precondition is not opened.

  The three frame claims are the generated frames (the reference's is its run with the result dropped); the
  idealization rewrote nothing, so that claim is trivial.
-/
import proofs.«155395_g33217277067915_cont_8to1_b_760_17_alg».proof.Defs
import proofs.«155395_g33217277067915_cont_8to1_b_760_17_alg».proof.Proof.Gen.Kernel
import proofs.«155395_g33217277067915_cont_8to1_b_760_17_alg».proof.Proof.Gen.Kernel.Skeleton
import proofs.«155395_g33217277067915_cont_8to1_b_760_17_alg».proof.Proof.Gen.Kernel.Launch
import proofs.«155395_g33217277067915_cont_8to1_b_760_17_alg».proof.Proof.Gen.Kernel.Points
import proofs.«155395_g33217277067915_cont_8to1_b_760_17_alg».proof.Proof.Gen.Kernel.Frame
import proofs.«155395_g33217277067915_cont_8to1_b_760_17_alg».proof.Proof.Gen.KernelIdeal
import proofs.«155395_g33217277067915_cont_8to1_b_760_17_alg».proof.Proof.Gen.KernelIdeal.Skeleton
import proofs.«155395_g33217277067915_cont_8to1_b_760_17_alg».proof.Proof.Gen.KernelIdeal.Launch
import proofs.«155395_g33217277067915_cont_8to1_b_760_17_alg».proof.Proof.Gen.KernelIdeal.Points
import proofs.«155395_g33217277067915_cont_8to1_b_760_17_alg».proof.Proof.Gen.KernelIdeal.Frame
import proofs.«155395_g33217277067915_cont_8to1_b_760_17_alg».proof.Proof.Gen.ReferenceIdeal
import proofs.«155395_g33217277067915_cont_8to1_b_760_17_alg».proof.Proof.Gen.Pre_finite_inputs
import proofs.«155395_g33217277067915_cont_8to1_b_760_17_alg».proof.Proof.Gen.KernelIdeal.Value
import proofs.«155395_g33217277067915_cont_8to1_b_760_17_alg».proof.Proof.Gen.ReferenceIdeal.Run
import proofs.«155395_g33217277067915_cont_8to1_b_760_17_alg».proof.Proof.Gen.ReferenceIdeal.Read
import proofs.«155395_g33217277067915_cont_8to1_b_760_17_alg».proof.Proof.Spec
import proofs.«155395_g33217277067915_cont_8to1_b_760_17_alg».proof.Proof.RefJoined
import proofs.«155395_g33217277067915_cont_8to1_b_760_17_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x, A₁ and A₂ both programs end with the joined array of the two products. -/
theorem algebraic : Cert.algebraic_KernelIdeal_ReferenceIdeal := by
  intro m ρ m' ρ' _ hagree
  refine ⟨fun c => Cert.TwoHop.joined (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Joined.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
